-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S64x1 : Shape := ⟨2, ![64, 1]⟩
abbrev S64 : Shape := ⟨1, ![64]⟩
abbrev S1 : Shape := ⟨1, ![1]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64x64 .f32) (main_arg5 : FVec F S64x64 .f32) (main_arg6 : FVec F S64x1 .f32) (main_arg7 : FVec F S64 .f32) (main_arg8 : FVec F S64 .f32) (main_arg9 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S1048576x64 .f32) (main_arg1 : FVec F S64x64 .f32) (main_arg2 : FVec F S64x64 .f32) (main_arg3 : FVec F S64x1 .f32) (main_arg4 : FVec F S64x64 .f32) (main_arg5 : FVec F S64x64 .f32) (main_arg6 : FVec F S64x1 .f32) (main_arg7 : FVec F S64 .f32) (main_arg8 : FVec F S64 .f32) (main_arg9 : FVec F S1 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_arg9 main_v13 main_v16
-- ==== Kernel.lean ====
abbrev S1048576x64 : Shape := ⟨2, ![1048576, 64]⟩
abbrev S64x64 : Shape := ⟨2, ![64, 64]⟩
abbrev S64x1 : Shape := ⟨2, ![64, 1]⟩
abbrev S64 : Shape := ⟨1, ![64]⟩
abbrev S1 : Shape := ⟨1, ![1]⟩
abbrev S_ : Shape := ⟨0, ![]⟩
abbrev S1048576x1 : Shape := ⟨2, ![1048576, 1]⟩
abbrev S32768x64 : Shape := ⟨2, ![32768, 64]⟩
abbrev S32768x1 : Shape := ⟨2, ![32768, 1]⟩
abbrev S1x64 : Shape := ⟨2, ![1, 64]⟩
abbrev S1x1 : Shape := ⟨2, ![1, 1]⟩

abbrev nBuf : Space → Nat
  | .hbm => 89
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S64x64, .f32⟩
  | .hbm, ⟨3, _⟩ => ⟨S64x1, .f32⟩
  | .hbm, ⟨4, _⟩ => ⟨S64x64, .f32⟩
  | .hbm, ⟨5, _⟩ => ⟨S64x64, .f32⟩
  | .hbm, ⟨6, _⟩ => ⟨S64x1, .f32⟩
  | .hbm, ⟨7, _⟩ => ⟨S64, .f32⟩
  | .hbm, ⟨8, _⟩ => ⟨S64, .f32⟩
  | .hbm, ⟨9, _⟩ => ⟨S1, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x1, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S64x1, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S1048576x1, .f32⟩
  | .local _ .vmem, ⟨0, _⟩ => ⟨S32768x64, .f32⟩
  | .local _ .vmem, ⟨1, _⟩ => ⟨S32768x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x1, .f32⟩
  | .local _ .vmem, ⟨7, _⟩ => ⟨S1, .f32⟩
  | .local _ .vmem, ⟨8, _⟩ => ⟨S32768x1, .f32⟩
  | .local _ .vmem, ⟨9, _⟩ => ⟨S32768x1, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32768x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S64x64 : S_.BroadcastsInDim S64x64 (![] : Fin 0 → Fin S64x64.rank)
  bcast_S_S64x1 : S_.BroadcastsInDim S64x1 (![] : Fin 0 → Fin S64x1.rank)
  bcast_S_S64 : S_.BroadcastsInDim S64 (![] : Fin 0 → Fin S64.rank)
  bcast_S_S1 : S_.BroadcastsInDim S1 (![] : Fin 0 → Fin S1.rank)
  inb_S32768x64_S32768x64_0_0 : ∀ a, (![0, 0] : Fin 2 → Nat) a + S32768x64.size a ≤ S32768x64.size a
  h_S32768x64 : 0 < S32768x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S32768x64 : S1x64.Broadcasts S32768x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S32768x1 : S1x1.Broadcasts S32768x1
  inb_S32768x1_S32768x1_0_0 : ∀ a, (![0, 0] : Fin 2 → Nat) a + S32768x1.size a ≤ S32768x1.size a
  h_S32768x1 : 0 < S32768x1.numel
  dot_S32768x64_S64x64_S32768x64_1_0_0_1_n_n_wf : DotDims.WF S32768x64 S64x64 S32768x64 [1] [0] [0] [1] [] []
  dot_S32768x64_S64x1_S32768x1_1_0_0_1_n_n_wf : DotDims.WF S32768x64 S64x1 S32768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S1048576x64.size a
  hwx0_0 : ∀ i : grid0.Coords, EltTy.bits .f32 = 32 ∨ (Rect.block (s := S1048576x64) S32768x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32768x1.size a ≤ S1048576x1.size a
  hwx0_7 : ∀ i : grid0.Coords, EltTy.bits .f32 = 32 ∨ (Rect.block (s := S1048576x1) S32768x1.size (cc0_transform_7 i) (hinb0_7 i)).WholeWords (EltTy.packing .f32)

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

abbrev win0_0 : Pipeline.Window sig grid0 :=
  Pipeline.Window.ofSpec (Memref.whole main_arg0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v56) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S32768x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S64x1 : Shape := ⟨2, ![64, 1]⟩
abbrev S64 : Shape := ⟨1, ![64]⟩
abbrev S1 : Shape := ⟨1, ![1]⟩
abbrev S_ : Shape := ⟨0, ![]⟩
abbrev S1x64 : Shape := ⟨2, ![1, 64]⟩
abbrev S1048576x1 : Shape := ⟨2, ![1048576, 1]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S64x64, .f32⟩
  | .hbm, ⟨3, _⟩ => ⟨S64x1, .f32⟩
  | .hbm, ⟨4, _⟩ => ⟨S64x64, .f32⟩
  | .hbm, ⟨5, _⟩ => ⟨S64x64, .f32⟩
  | .hbm, ⟨6, _⟩ => ⟨S64x1, .f32⟩
  | .hbm, ⟨7, _⟩ => ⟨S64, .f32⟩
  | .hbm, ⟨8, _⟩ => ⟨S64, .f32⟩
  | .hbm, ⟨9, _⟩ => ⟨S1, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x64, .f32⟩
  | .hbm, ⟨36, _⟩ => ⟨S1048576x64, .f32⟩
  | .hbm, ⟨37, _⟩ => ⟨S1x64, .f32⟩
  | .hbm, ⟨38, _⟩ => ⟨S1048576x64, .f32⟩
  | .hbm, ⟨39, _⟩ => ⟨S1048576x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S_, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64x64, .f32⟩
  | .hbm, ⟨66, _⟩ => ⟨S1048576x64, .f32⟩
  | .hbm, ⟨67, _⟩ => ⟨S1x64, .f32⟩
  | .hbm, ⟨68, _⟩ => ⟨S1048576x64, .f32⟩
  | .hbm, ⟨69, _⟩ => ⟨S1048576x64, .f32⟩
  | .hbm, ⟨70, _⟩ => ⟨S_, .f32⟩
  | .hbm, ⟨71, _⟩ => ⟨S64x1, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S_, .f32⟩
  | .hbm, ⟨76, _⟩ => ⟨S64x1, .f32⟩
  | .hbm, ⟨77, _⟩ => ⟨S64x1, .f32⟩
  | .hbm, ⟨78, _⟩ => ⟨S_, .f32⟩
  | .hbm, ⟨79, _⟩ => ⟨S64x1, .f32⟩
  | .hbm, ⟨80, _⟩ => ⟨S64x1, .f32⟩
  | .hbm, ⟨81, _⟩ => ⟨S1, .f32⟩
  | .hbm, ⟨82, _⟩ => ⟨S1, .f32⟩
  | .hbm, ⟨83, _⟩ => ⟨S_, .f32⟩
  | .hbm, ⟨84, _⟩ => ⟨S1, .f32⟩
  | .hbm, ⟨85, _⟩ => ⟨S1, .f32⟩
  | .hbm, ⟨86, _⟩ => ⟨S_, .f32⟩
  | .hbm, ⟨87, _⟩ => ⟨S1, .f32⟩
  | .hbm, ⟨88, _⟩ => ⟨S1, .f32⟩
  | .hbm, ⟨89, _⟩ => ⟨S_, .f32⟩
  | .hbm, ⟨90, _⟩ => ⟨S1, .f32⟩
  | .hbm, ⟨91, _⟩ => ⟨S1, .f32⟩
  | .hbm, ⟨92, _⟩ => ⟨S_, .f32⟩
  | .hbm, ⟨93, _⟩ => ⟨S1, .f32⟩
  | .hbm, ⟨94, _⟩ => ⟨S1, .f32⟩
  | .hbm, ⟨95, _⟩ => ⟨S64x1, .f32⟩
  | .hbm, ⟨96, _⟩ => ⟨S1048576x1, .f32⟩
  | .hbm, ⟨97, _⟩ => ⟨S1x1, .f32⟩
  | .hbm, ⟨98, _⟩ => ⟨S1048576x1, .f32⟩
  | .hbm, ⟨99, _⟩ => ⟨S1048576x1, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_cst_18 : Ref sig .tc := ⟨.hbm, 89, rfl⟩
abbrev main_v60 : Ref sig .tc := ⟨.hbm, 90, rfl⟩
abbrev main_v61 : Ref sig .tc := ⟨.hbm, 91, rfl⟩
abbrev main_cst_19 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S_S64 : S_.BroadcastsInDim S64 (![] : Fin 0 → Fin S64.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S64x1 : S_.BroadcastsInDim S64x1 (![] : Fin 0 → Fin S64x1.rank)
  bcast_S_S1 : S_.BroadcastsInDim S1 (![] : Fin 0 → Fin S1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x64_S64x64_S1048576x64_1_0_0_1_n_n_wf : DotDims.WF S1048576x64 S64x64 S1048576x64 [1] [0] [0] [1] [] []
  dot_S1048576x64_S64x1_S1048576x1_1_0_0_1_n_n_wf : DotDims.WF S1048576x64 S64x1 S1048576x1 [1] [0] [0] [1] [] []

variable [Facts₀]

def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«133525_j63127429317268_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.RowChain.lean ====
/-
  The function both programs compute, stated once, with no program in sight.

  A row `h` of 64 extended reals goes through an affine layer with weight matrix `W` and bias `a`:
  entry `j` of the result is `∑ k, h k * W (k, j) + a j`. Three such layers follow one another, 64 → 64 → 64 → 1,
  and the output array has one entry per row of the input matrix `x`: row `r` of `x` sent through the three layers.
  Nothing here is particular to the extended reals beyond `+`, `*` and finite sums, and no law of arithmetic is
  used: the two programs add and multiply the same terms in the same order.
-/
import Idealize.ShloMosaic.PureOps.Ideal
import Idealize.ShloMosaic.Lib.ValueIdx

noncomputable section

namespace Cert.RowChain

open Idealize.ShloMosaic Idealize.ShloMosaic.ValueIdx

/-- A hidden layer on one row: entry `j` is `∑ k, h k * W (k, j) + a j`. -/
def hidden (W : (⟨2, ![64, 64]⟩ : Shape).Idx → EReal) (a : (⟨1, ![64]⟩ : Shape).Idx → EReal) (h : Fin 64 → EReal)
    (j : Fin 64) : EReal :=
  (∑ k : Fin 64, h k * W (ix2 k j)) + a (ix1 j)

/-- The last layer on one row: the one output `∑ k, h k * W (k, 0) + a 0`. -/
def last (W : (⟨2, ![64, 1]⟩ : Shape).Idx → EReal) (a : (⟨1, ![1]⟩ : Shape).Idx → EReal) (h : Fin 64 → EReal) : EReal :=
  (∑ k : Fin 64, h k * W (ix2 k (0 : Fin 1))) + a (ix1 (0 : Fin 1))

/-- One row through the three layers. -/
def row (W0 : (⟨2, ![64, 64]⟩ : Shape).Idx → EReal) (a0 : (⟨1, ![64]⟩ : Shape).Idx → EReal)
    (W1 : (⟨2, ![64, 64]⟩ : Shape).Idx → EReal) (a1 : (⟨1, ![64]⟩ : Shape).Idx → EReal)
    (W2 : (⟨2, ![64, 1]⟩ : Shape).Idx → EReal) (a2 : (⟨1, ![1]⟩ : Shape).Idx → EReal) (h : Fin 64 → EReal) : EReal :=
  last W2 a2 (hidden W1 a1 (hidden W0 a0 h))

/-- The output array: entry `(r, 0)` is row `r` of `x` through the three layers. -/
def out (x : (⟨2, ![1048576, 64]⟩ : Shape).Idx → EReal)
    (W0 : (⟨2, ![64, 64]⟩ : Shape).Idx → EReal) (a0 : (⟨1, ![64]⟩ : Shape).Idx → EReal)
    (W1 : (⟨2, ![64, 64]⟩ : Shape).Idx → EReal) (a1 : (⟨1, ![64]⟩ : Shape).Idx → EReal)
    (W2 : (⟨2, ![64, 1]⟩ : Shape).Idx → EReal) (a2 : (⟨1, ![1]⟩ : Shape).Idx → EReal) :
    (⟨2, ![1048576, 1]⟩ : Shape).Idx → EReal :=
  fun i => row W0 a0 W1 a1 W2 a2 fun k => x (ix2 (⟨(i 0).val, idx2_lt0 i⟩ : Fin 1048576) k)

/-- At an index written from its coordinates the row is the first coordinate. -/
theorem out_ix2 (x : (⟨2, ![1048576, 64]⟩ : Shape).Idx → EReal)
    (W0 : (⟨2, ![64, 64]⟩ : Shape).Idx → EReal) (a0 : (⟨1, ![64]⟩ : Shape).Idx → EReal)
    (W1 : (⟨2, ![64, 64]⟩ : Shape).Idx → EReal) (a1 : (⟨1, ![64]⟩ : Shape).Idx → EReal)
    (W2 : (⟨2, ![64, 1]⟩ : Shape).Idx → EReal) (a2 : (⟨1, ![1]⟩ : Shape).Idx → EReal)
    (r : Fin 1048576) (q : Fin 1) :
    out x W0 a0 W1 a1 W2 a2 (ix2 r q) = row W0 a0 W1 a1 W2 a2 fun k => x (ix2 r k) := rfl

/-- Weights, biases and rows that agree entry by entry give the same output. -/
theorem row_congr {W0 W0' : (⟨2, ![64, 64]⟩ : Shape).Idx → EReal} {a0 a0' : (⟨1, ![64]⟩ : Shape).Idx → EReal}
    {W1 W1' : (⟨2, ![64, 64]⟩ : Shape).Idx → EReal} {a1 a1' : (⟨1, ![64]⟩ : Shape).Idx → EReal}
    {W2 W2' : (⟨2, ![64, 1]⟩ : Shape).Idx → EReal} {a2 a2' : (⟨1, ![1]⟩ : Shape).Idx → EReal}
    {h h' : Fin 64 → EReal} (hW0 : ∀ y, W0 y = W0' y) (ha0 : ∀ y, a0 y = a0' y) (hW1 : ∀ y, W1 y = W1' y) (ha1 : ∀ y, a1 y = a1' y)
    (hW2 : ∀ y, W2 y = W2' y) (ha2 : ∀ y, a2 y = a2' y) (hh : ∀ k, h k = h' k) :
    row W0 a0 W1 a1 W2 a2 h = row W0' a0' W1' a1' W2' a2' h' := by
  obtain rfl : W0 = W0' := funext hW0
  obtain rfl : a0 = a0' := funext ha0
  obtain rfl : W1 = W1' := funext hW1
  obtain rfl : a1 = a1' := funext ha1
  obtain rfl : W2 = W2' := funext hW2
  obtain rfl : a2 = a2' := funext ha2
  obtain rfl : h = h' := funext hh
  rfl

/-- The same for the whole output array. -/
theorem out_congr {x x' : (⟨2, ![1048576, 64]⟩ : Shape).Idx → EReal} {W0 W0' : (⟨2, ![64, 64]⟩ : Shape).Idx → EReal} {a0 a0' : (⟨1, ![64]⟩ : Shape).Idx → EReal}
    {W1 W1' : (⟨2, ![64, 64]⟩ : Shape).Idx → EReal} {a1 a1' : (⟨1, ![64]⟩ : Shape).Idx → EReal}
    {W2 W2' : (⟨2, ![64, 1]⟩ : Shape).Idx → EReal} {a2 a2' : (⟨1, ![1]⟩ : Shape).Idx → EReal}
    (hx : ∀ y, x y = x' y) (hW0 : ∀ y, W0 y = W0' y) (ha0 : ∀ y, a0 y = a0' y) (hW1 : ∀ y, W1 y = W1' y) (ha1 : ∀ y, a1 y = a1' y)
    (hW2 : ∀ y, W2 y = W2' y) (ha2 : ∀ y, a2 y = a2' y) :
    out x W0 a0 W1 a1 W2 a2 = out x' W0' a0' W1' a1' W2' a2' := by
  obtain rfl : x = x' := funext hx
  obtain rfl : W0 = W0' := funext hW0
  obtain rfl : a0 = a0' := funext ha0
  obtain rfl : W1 = W1' := funext hW1
  obtain rfl : a1 = a1' := funext ha1
  obtain rfl : W2 = W2' := funext hW2
  obtain rfl : a2 = a2' := funext ha2
  rfl

end Cert.RowChain

end
-- ==== Proof.KernelPayload.lean ====
/-
  What the kernel body stores, read at an index.

  The body loads a block of 32768 rows of `x`, the three weight matrices and the three bias vectors, and stores
  `((x_blk · W0 + a0) · W1 + a1) · W2 + a2`: each product a matrix-unit product into the zero accumulator, each bias
  a vector cast to a one-row matrix and broadcast down the rows. At row `p` of the block (the one column is column
  0) the stored value is row `p` of the loaded block through the three affine layers.
-/
import proofs.«133525_j63127429317268_1_alg».proof.Proof.Gen.KernelIdeal.Skeleton
import proofs.«133525_j63127429317268_1_alg».proof.Proof.LibAffineLayer
import proofs.«133525_j63127429317268_1_alg».proof.Proof.RowChain
import Idealize.ShloMosaic.Lib.Pipeline.Value

noncomputable section

namespace Cert.KernelIdeal.Rows

open Cert.KernelIdeal Cert.KernelIdeal.Facts₀ Cert.KernelIdeal.Facts
open Idealize.ShloMosaic Idealize.ShloMosaic.ValueIdx

/-- A hidden layer as the body spells it (the weight block shape-cast to its own shape, the bias cast to a row and
    broadcast), at `(p, q)`: row `p` of the left operand through the affine map, entry `q`. -/
theorem hidden_apply (l : FVec Ideal S32768x64 .f32) (w : Vec Ideal S64x64 .f32) (b : Vec Ideal S64 .f32)
    (p : Fin 32768) (q : Fin 64) :
    addf (matmul dot_S32768x64_S64x64_S32768x64_1_0_0_1_n_n none l (shapeCast S64x64 w shapeCasts_S64x64_S64x64 : FVec Ideal S64x64 .f32)
          (constant S32768x64 .f32 0x00000000#32))
        (broadcastTo S32768x64 (shapeCast S1x64 (shapeCast S64 b shapeCasts_S64_S64) shapeCasts_S64_S1x64)
          broadcasts_S1x64_S32768x64) (ix2 p q)
      = Cert.RowChain.hidden w b (fun k => l (ix2 p k)) q := by
  rw [shapeCast_self, shapeCast_self]
  exact Cert.Lib.affine_apply dot_S32768x64_S64x64_S32768x64_1_0_0_1_n_n.wf l w b shapeCasts_S64_S1x64
    broadcasts_S1x64_S32768x64 p q

/-- The last layer as the body spells it, at `(p, 0)`. -/
theorem last_apply (l : FVec Ideal S32768x64 .f32) (w : Vec Ideal S64x1 .f32) (b : Vec Ideal S1 .f32) (p : Fin 32768) :
    addf (matmul dot_S32768x64_S64x1_S32768x1_1_0_0_1_n_n none l (shapeCast S64x1 w shapeCasts_S64x1_S64x1 : FVec Ideal S64x1 .f32)
          (constant S32768x1 .f32 0x00000000#32))
        (broadcastTo S32768x1 (shapeCast S1x1 (shapeCast S1 b shapeCasts_S1_S1) shapeCasts_S1_S1x1)
          broadcasts_S1x1_S32768x1) (ix2 p (0 : Fin 1))
      = Cert.RowChain.last w b (fun k => l (ix2 p k)) := by
  rw [shapeCast_self, shapeCast_self]
  exact Cert.Lib.affine_apply dot_S32768x64_S64x1_S32768x1_1_0_0_1_n_n.wf l w b shapeCasts_S1_S1x1
    broadcasts_S1x1_S32768x1 p (0 : Fin 1)

/-- The stored value at row `p`: row `p` of the loaded block of `x` through the three layers. -/
theorem payload_apply (v0 : Vec Ideal S32768x64 .f32) (v1 : Vec Ideal S64x64 .f32) (v4 : Vec Ideal S64 .f32)
    (v9 : Vec Ideal S64x64 .f32) (v12 : Vec Ideal S64 .f32) (v17 : Vec Ideal S64x1 .f32) (v20 : Vec Ideal S1 .f32)
    (p : Fin 32768) :
    Gen.k0_pay1 (F := Ideal) v0 v1 v4 v9 v12 v17 v20 (ix2 p (0 : Fin 1))
      = Cert.RowChain.row v1 v4 v9 v12 v17 v20 (fun k => v0 (ix2 p k)) := by
  unfold Gen.k0_pay1
  refine (last_apply _ v17 v20 p).trans ?_
  unfold Cert.RowChain.row
  refine congrArg (Cert.RowChain.last v17 v20) (funext fun k2 => ?_)
  refine (hidden_apply _ v9 v12 p k2).trans ?_
  refine congrArg (fun h => Cert.RowChain.hidden v9 v12 h k2) (funext fun k1 => ?_)
  exact hidden_apply v0 v1 v4 p k1

end Cert.KernelIdeal.Rows

end
-- ==== Proof.KernelBlocks.lean ====
/-
  From the blocks to the whole array.

  The grid has 32 points. At point `t` the window over `x` stages rows `32768 t … 32768 t + 32767`, the windows over
  the weights and biases stage their whole arrays (block index zero on every axis), and the output window writes
  back rows `32768 t … 32768 t + 32767` of the one output column. So what point `t` writes back is block `t` of the
  array whose entry `(r, 0)` is row `r` of `x` through the three layers; the 32 blocks tile the 1048576 rows (row `r`
  is in block `r / 32768`), and the array the run leaves is that function of the arrays the region found.
-/
import proofs.«133525_j63127429317268_1_alg».proof.Proof.Gen.KernelIdeal.Value
import proofs.«133525_j63127429317268_1_alg».proof.Proof.KernelPayload

set_option maxRecDepth 16384

noncomputable section

namespace Cert.KernelIdeal.Rows

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid, decided: the windows over `x` and over the output are at block row `t`,
    block column 0; every other window is at block index zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of the block of `x` at point `t` is row `32768 t + p` of `x`. -/
theorem read_x (c : Dev nD) (t : Fin cfg0.N) (p : Fin 32768) (k : Fin 64) (hr : t.val * 32768 + p.val < 1048576) :
    iblk m c 0 t (ix2 p k) = V m c main_arg0 (ix2 (⟨t.val * 32768 + p.val, hr⟩ : Fin 1048576) k) := by
  obtain ⟨e00, e01, e10, e11, e20, e30, e31, e40, e50, e51, e60, e70, e71⟩ := index_facts t
  show V m c main_arg0 (((cfg0.win 0).blk t).view.emb (ix2 p k)) = _
  have h : ((cfg0.win 0).blk t).view.emb (ix2 p k) = ix2 (⟨t.val * 32768 + p.val, hr⟩ : Fin 1048576) k :=
    funext fun a => Fin.ext (by
      match a with
      | ⟨0, _⟩ => show win0_0.index t (0 : Fin 2) * 32768 + 1 * p.val = t.val * 32768 + p.val; omega
      | ⟨1, _⟩ => show win0_0.index t (1 : Fin 2) * 64 + 1 * k.val = k.val; omega)
  rw [h]

/-- The first weight window's block is its whole array. -/
theorem read_w0 (c : Dev nD) (t : Fin cfg0.N) (y : S64x64.Idx) : iblk m c 1 t y = V m c main_v8 y := by
  obtain ⟨e00, e01, e10, e11, e20, e30, e31, e40, e50, e51, e60, e70, e71⟩ := index_facts t
  show V m c main_v8 (((cfg0.win 1).blk t).view.emb y) = V m c main_v8 y
  have h : ((cfg0.win 1).blk t).view.emb y = y := funext fun a => Fin.ext (by
    match a with
    | ⟨0, _⟩ => show win0_1.index t (0 : Fin 2) * 64 + 1 * (y 0).val = (y 0).val; omega
    | ⟨1, _⟩ => show win0_1.index t (1 : Fin 2) * 64 + 1 * (y 1).val = (y 1).val; omega)
  rw [h]

/-- The first bias window's block is its whole array. -/
theorem read_a0 (c : Dev nD) (t : Fin cfg0.N) (y : S64.Idx) : iblk m c 2 t y = V m c main_v36 y := by
  obtain ⟨e00, e01, e10, e11, e20, e30, e31, e40, e50, e51, e60, e70, e71⟩ := index_facts t
  show V m c main_v36 (((cfg0.win 2).blk t).view.emb y) = V m c main_v36 y
  have h : ((cfg0.win 2).blk t).view.emb y = y := funext fun a => Fin.ext (by
    match a with
    | ⟨0, _⟩ => show win0_2.index t (0 : Fin 1) * 64 + 1 * (y 0).val = (y 0).val; omega)
  rw [h]

/-- The second weight window's block is its whole array. -/
theorem read_w1 (c : Dev nD) (t : Fin cfg0.N) (y : S64x64.Idx) : iblk m c 3 t y = V m c main_v17 y := by
  obtain ⟨e00, e01, e10, e11, e20, e30, e31, e40, e50, e51, e60, e70, e71⟩ := index_facts t
  show V m c main_v17 (((cfg0.win 3).blk t).view.emb y) = V m c main_v17 y
  have h : ((cfg0.win 3).blk t).view.emb y = y := funext fun a => Fin.ext (by
    match a with
    | ⟨0, _⟩ => show win0_3.index t (0 : Fin 2) * 64 + 1 * (y 0).val = (y 0).val; omega
    | ⟨1, _⟩ => show win0_3.index t (1 : Fin 2) * 64 + 1 * (y 1).val = (y 1).val; omega)
  rw [h]

/-- The second bias window's block is its whole array. -/
theorem read_a1 (c : Dev nD) (t : Fin cfg0.N) (y : S64.Idx) : iblk m c 4 t y = V m c main_v46 y := by
  obtain ⟨e00, e01, e10, e11, e20, e30, e31, e40, e50, e51, e60, e70, e71⟩ := index_facts t
  show V m c main_v46 (((cfg0.win 4).blk t).view.emb y) = V m c main_v46 y
  have h : ((cfg0.win 4).blk t).view.emb y = y := funext fun a => Fin.ext (by
    match a with
    | ⟨0, _⟩ => show win0_4.index t (0 : Fin 1) * 64 + 1 * (y 0).val = (y 0).val; omega)
  rw [h]

/-- The last weight window's block is its whole array. -/
theorem read_w2 (c : Dev nD) (t : Fin cfg0.N) (y : S64x1.Idx) : iblk m c 5 t y = V m c main_v26 y := by
  obtain ⟨e00, e01, e10, e11, e20, e30, e31, e40, e50, e51, e60, e70, e71⟩ := index_facts t
  show V m c main_v26 (((cfg0.win 5).blk t).view.emb y) = V m c main_v26 y
  have h : ((cfg0.win 5).blk t).view.emb y = y := funext fun a => Fin.ext (by
    match a with
    | ⟨0, _⟩ => show win0_5.index t (0 : Fin 2) * 64 + 1 * (y 0).val = (y 0).val; omega
    | ⟨1, _⟩ => show win0_5.index t (1 : Fin 2) * 1 + 1 * (y 1).val = (y 1).val; omega)
  rw [h]

/-- The last bias window's block is its whole array. -/
theorem read_a2 (c : Dev nD) (t : Fin cfg0.N) (y : S1.Idx) : iblk m c 6 t y = V m c main_v56 y := by
  obtain ⟨e00, e01, e10, e11, e20, e30, e31, e40, e50, e51, e60, e70, e71⟩ := index_facts t
  show V m c main_v56 (((cfg0.win 6).blk t).view.emb y) = V m c main_v56 y
  have h : ((cfg0.win 6).blk t).view.emb y = y := funext fun a => Fin.ext (by
    match a with
    | ⟨0, _⟩ => show win0_6.index t (0 : Fin 1) * 1 + 1 * (y 0).val = (y 0).val; omega)
  rw [h]

/-- What point `t` writes back is block `t` of the rows of `x` sent through the three layers, over the arrays as the
    region finds them. -/
theorem flushed_eq (c : Dev nD) (t : Fin cfg0.N) :
    (dats m 0 c).flushed 7 t = ((cfg0.win 7).blk t).view.read (Elt Ideal)
      (Cert.RowChain.out (V m c main_arg0) (V m c main_v8) (V m c main_v36) (V m c main_v17) (V m c main_v46) (V m c main_v26) (V m c main_v56)) := by
  show (cfg0.win 7).cut (grid0.coords t) ((dats m 0 c).after 7 t) = _
  rw [after0_7]
  unfold out0_7
  rw [View.canon_unit_zero zero2]
  simp only [View.ld_unit_zero (S := S32768x64) zero2, View.ld_unit_zero (S := S64x64) zero2,
    View.ld_unit_zero (S := S64) zero1, View.ld_unit_zero (S := S64x1) zero2, View.ld_unit_zero (S := S1) zero1]
  refine funext fun (j : S32768x1.Idx) => ?_
  obtain ⟨p, q, rfl⟩ : ∃ (p : Fin 32768) (q : Fin 1), j = ix2 p q := ⟨j 0, j 1, eq_ix2 j⟩
  obtain rfl : q = 0 := Subsingleton.elim _ _
  obtain ⟨e00, e01, e10, e11, e20, e30, e31, e40, e50, e51, e60, e70, e71⟩ := index_facts t
  have hN : cfg0.N = 32 := N_0
  have ht : t.val < 32 := by have := t.isLt; omega
  have hr : t.val * 32768 + p.val < 1048576 := by have := p.isLt; omega
  show k0_pay1 (F := Ideal) (iblk m c 0 t) (iblk m c 1 t) (iblk m c 2 t) (iblk m c 3 t) (iblk m c 4 t) (iblk m c 5 t) (iblk m c 6 t) (ix2 p (0 : Fin 1))
      = Cert.RowChain.out (V m c main_arg0) (V m c main_v8) (V m c main_v36) (V m c main_v17) (V m c main_v46) (V m c main_v26) (V m c main_v56) (((cfg0.win 7).blk t).view.emb (ix2 p (0 : Fin 1)))
  have hemb : ((cfg0.win 7).blk t).view.emb (ix2 p (0 : Fin 1)) = ix2 (⟨t.val * 32768 + p.val, hr⟩ : Fin 1048576) (0 : Fin 1) :=
    funext fun a => Fin.ext (by
      match a with
      | ⟨0, _⟩ => show win0_7.index t (0 : Fin 2) * 32768 + 1 * p.val = t.val * 32768 + p.val; omega
      | ⟨1, _⟩ => show win0_7.index t (1 : Fin 2) * 1 + 1 * 0 = 0; omega)
  rw [hemb, Cert.RowChain.out_ix2]
  refine (payload_apply (iblk m c 0 t) (iblk m c 1 t) (iblk m c 2 t) (iblk m c 3 t) (iblk m c 4 t) (iblk m c 5 t) (iblk m c 6 t) p).trans ?_
  exact Cert.RowChain.row_congr (W0 := iblk m c 1 t) (W0' := V m c main_v8) (a0 := iblk m c 2 t) (a0' := V m c main_v36)
    (W1 := iblk m c 3 t) (W1' := V m c main_v17) (a1 := iblk m c 4 t) (a1' := V m c main_v46)
    (W2 := iblk m c 5 t) (W2' := V m c main_v26) (a2 := iblk m c 6 t) (a2' := V m c main_v56)
    (read_w0 m c t) (read_a0 m c t) (read_w1 m c t) (read_a1 m c t) (read_w2 m c t) (read_a2 m c t)
    (fun k => read_x m c t p k hr)

/-- An index of the output array is in point `t`'s block iff each coordinate is in the block's range on its axis. -/
theorem mem_block (t : Fin cfg0.N) (i : S1048576x1.Idx) :
    i ∈ ((cfg0.win 7).blk t).view.set ↔ ∀ a : Fin 2, win0_7.index t a * S32768x1.size a ≤ (i a).val
      ∧ (i a).val < win0_7.index t a * S32768x1.size a + S32768x1.size a := by
  show i ∈ ((View.whole main_v57).slice (win0_7.rect t)).set ↔ _
  rw [View.set_slice_whole, Rect.mem_set_unit]
  exact Iff.rfl

/-- Every row of the output is in some point's block: row `r` in block `r / 32768`. -/
theorem cover (i : S1048576x1.Idx) :
    ∃ t : Fin cfg0.N, (cfg0.win 7).flush t = true ∧ i ∈ ((cfg0.win 7).blk t).view.set := by
  have hN : cfg0.N = 32 := N_0
  have hi0 : (i 0).val < 1048576 := idx2_lt0 i
  have hi1 : (i 1).val < 1 := idx2_lt1 i
  have ht : (i 0).val / 32768 < cfg0.N := by rw [hN]; omega
  obtain ⟨e00, e01, e10, e11, e20, e30, e31, e40, e50, e51, e60, e70, e71⟩ := index_facts ⟨(i 0).val / 32768, ht⟩
  have e70' : win0_7.index ⟨(i 0).val / 32768, ht⟩ (0 : Fin 2) = (i 0).val / 32768 := e70
  refine ⟨⟨(i 0).val / 32768, ht⟩, flush0_7 _, ?_⟩
  rw [mem_block]
  intro a
  match a with
  | ⟨0, _⟩ =>
    show win0_7.index ⟨(i 0).val / 32768, ht⟩ (0 : Fin 2) * 32768 ≤ (i 0).val
      ∧ (i 0).val < win0_7.index ⟨(i 0).val / 32768, ht⟩ (0 : Fin 2) * 32768 + 32768
    omega
  | ⟨1, _⟩ =>
    show win0_7.index ⟨(i 0).val / 32768, ht⟩ (1 : Fin 2) * 1 ≤ (i 1).val
      ∧ (i 1).val < win0_7.index ⟨(i 0).val / 32768, ht⟩ (1 : Fin 2) * 1 + 1
    omega

/-- The output array after the run: every row of `x` through the three layers, over the arrays the region found. -/
theorem final (c : Dev nD) :
    (dats m 0 c).arrAt 7 cfg0.N = Cert.RowChain.out (V m c main_arg0) (V m c main_v8) (V m c main_v36) (V m c main_v17) (V m c main_v46) (V m c main_v26) (V m c main_v56) :=
  (dats m 0 c).arrAt_eq_of_cover 7 _ (fun t _ => flushed_eq m c t) cover

end Cert.KernelIdeal.Rows

end
-- ==== Proof.KernelHost.lean ====
/-
  The weights and biases the kernel's region finds.

  Before the region the kernel's program computes, on the host, the three effective weight matrices
  `(1 / (1 + exp (-(el / 3)))) * es` and the three bias vectors `(1 / (1 + exp (-b))) * 3 - 1`, with the same operations
  in the same order and the same literals as the reference does for its own layers. So the arrays the region's
  weight and bias windows stage are, as terms of the argument arrays, the reference's stages: each equation below
  is the host operations before the region read back, then both sides unfolded.
-/
import proofs.«133525_j63127429317268_1_alg».proof.Proof.Gen.KernelIdeal.Frame
import proofs.«133525_j63127429317268_1_alg».proof.Proof.Gen.ReferenceIdeal.Read
import Idealize.ShloMosaic.Lib.StableHlo.Run

noncomputable section

namespace Cert.KernelIdeal.HostValues

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first layer's weight matrix, from the first logits and scales. -/
theorem weight0 (c : Dev nD) :
    (V m c main_v8 : (⟨S64x64, .f32⟩ : BufTy).Contents (Elt Ideal)) = Cert.ReferenceIdeal.Read.val_main_v18 (F := Ideal) (m ((c : Thread nD τ).loc main_arg1)) (m ((c : Thread nD τ).loc main_arg4)) := by
  dsimp only [V, hostOps0]
  after_results_simp
  rfl

/-- The first layer's bias vector. -/
theorem bias0 (c : Dev nD) :
    (V m c main_v36 : (⟨S64, .f32⟩ : BufTy).Contents (Elt Ideal)) = Cert.ReferenceIdeal.Read.val_main_v17 (F := Ideal) (m ((c : Thread nD τ).loc main_arg7)) := by
  dsimp only [V, hostOps0]
  after_results_simp
  rfl

/-- The second layer's weight matrix. -/
theorem weight1 (c : Dev nD) :
    (V m c main_v17 : (⟨S64x64, .f32⟩ : BufTy).Contents (Elt Ideal)) = Cert.ReferenceIdeal.Read.val_main_v41 (F := Ideal) (m ((c : Thread nD τ).loc main_arg2)) (m ((c : Thread nD τ).loc main_arg5)) := by
  dsimp only [V, hostOps0]
  after_results_simp
  rfl

/-- The second layer's bias vector. -/
theorem bias1 (c : Dev nD) :
    (V m c main_v46 : (⟨S64, .f32⟩ : BufTy).Contents (Elt Ideal)) = Cert.ReferenceIdeal.Read.val_main_v40 (F := Ideal) (m ((c : Thread nD τ).loc main_arg8)) := by
  dsimp only [V, hostOps0]
  after_results_simp
  rfl

/-- The last layer's weight column. -/
theorem weight2 (c : Dev nD) :
    (V m c main_v26 : (⟨S64x1, .f32⟩ : BufTy).Contents (Elt Ideal)) = Cert.ReferenceIdeal.Read.val_main_v64 (F := Ideal) (m ((c : Thread nD τ).loc main_arg3)) (m ((c : Thread nD τ).loc main_arg6)) := by
  dsimp only [V, hostOps0]
  after_results_simp
  rfl

/-- The last layer's bias. -/
theorem bias2 (c : Dev nD) :
    (V m c main_v56 : (⟨S1, .f32⟩ : BufTy).Contents (Elt Ideal)) = Cert.ReferenceIdeal.Read.val_main_v63 (F := Ideal) (m ((c : Thread nD τ).loc main_arg9)) := by
  dsimp only [V, hostOps0]
  after_results_simp
  rfl

end Cert.KernelIdeal.HostValues

end
-- ==== Proof.KernelRun.lean ====
/-
  The kernel's run, with its output array named.

  The array the run leaves in the result buffer is every row of `x` through the three layers (the blocks, put
  together), over the arrays the region found; the region found `x` as launched and the weights and biases as the host
  operations before it computed them, which are the reference's own weight and bias stages of the argument arrays.
-/
import proofs.«133525_j63127429317268_1_alg».proof.Proof.KernelBlocks
import proofs.«133525_j63127429317268_1_alg».proof.Proof.KernelHost

noncomputable section

namespace Cert.KernelIdeal.Rows

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (ρ : Dev nD → PrngReg)

/-- The output array after the run, as a function of the argument arrays. -/
theorem final_args (c : Dev nD) :
    (dats m 0 c).arrAt 7 cfg0.N = Cert.RowChain.out (m ((c : Thread nD τ).loc main_arg0))
      (Cert.ReferenceIdeal.Read.val_main_v18 (F := Ideal) (m ((c : Thread nD τ).loc main_arg1)) (m ((c : Thread nD τ).loc main_arg4)))
      (Cert.ReferenceIdeal.Read.val_main_v17 (F := Ideal) (m ((c : Thread nD τ).loc main_arg7)))
      (Cert.ReferenceIdeal.Read.val_main_v41 (F := Ideal) (m ((c : Thread nD τ).loc main_arg2)) (m ((c : Thread nD τ).loc main_arg5)))
      (Cert.ReferenceIdeal.Read.val_main_v40 (F := Ideal) (m ((c : Thread nD τ).loc main_arg8)))
      (Cert.ReferenceIdeal.Read.val_main_v64 (F := Ideal) (m ((c : Thread nD τ).loc main_arg3)) (m ((c : Thread nD τ).loc main_arg6)))
      (Cert.ReferenceIdeal.Read.val_main_v63 (F := Ideal) (m ((c : Thread nD τ).loc main_arg9))) :=
  (final m c).trans (Cert.RowChain.out_congr
    (fun y => congrFun (V_main_arg0 m c) y)
    (fun y => congrFun (HostValues.weight0 m c) y) (fun y => congrFun (HostValues.bias0 m c) y)
    (fun y => congrFun (HostValues.weight1 m c) y) (fun y => congrFun (HostValues.bias1 m c) y)
    (fun y => congrFun (HostValues.weight2 m c) y) (fun y => congrFun (HostValues.bias2 m c) y))

/-- Every weakly fair execution of the kernel's program ends with the result buffer at that array and the arguments
    unchanged. -/
theorem run : θ_run defs (onTc (τ := τ) (main (F := Ideal))) ⟨m, fun _ => 0, ρ⟩ fun r => ∀ c : Dev nD,
      r.2.mem ((c : Thread nD τ).loc main_v57) = Cert.RowChain.out (m ((c : Thread nD τ).loc main_arg0))
      (Cert.ReferenceIdeal.Read.val_main_v18 (F := Ideal) (m ((c : Thread nD τ).loc main_arg1)) (m ((c : Thread nD τ).loc main_arg4)))
      (Cert.ReferenceIdeal.Read.val_main_v17 (F := Ideal) (m ((c : Thread nD τ).loc main_arg7)))
      (Cert.ReferenceIdeal.Read.val_main_v41 (F := Ideal) (m ((c : Thread nD τ).loc main_arg2)) (m ((c : Thread nD τ).loc main_arg5)))
      (Cert.ReferenceIdeal.Read.val_main_v40 (F := Ideal) (m ((c : Thread nD τ).loc main_arg8)))
      (Cert.ReferenceIdeal.Read.val_main_v64 (F := Ideal) (m ((c : Thread nD τ).loc main_arg3)) (m ((c : Thread nD τ).loc main_arg6)))
      (Cert.ReferenceIdeal.Read.val_main_v63 (F := Ideal) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_args m c), (h c).2⟩) (run_blocks m ρ)

end Cert.KernelIdeal.Rows

end
-- ==== Proof.RefRows.lean ====
/-
  The reference, read at an index, is the same function.

  The reference computes each layer as a `dot_general` of the whole 1048576-row matrix with the layer's weight matrix
  and adds the bias broadcast down the rows. Read at `(r, j)` (the generated stage lemmas), each layer is row `r` of its
  operand through the affine map, so the result at `(r, 0)` is row `r` of `x` through the three layers. The weight and
  bias stages (the sigmoid edge weights times the scales, three times the sigmoid of the bias less one) are carried
  as they are: the kernel's program computes the same terms.
-/
import proofs.«133525_j63127429317268_1_alg».proof.Proof.Gen.ReferenceIdeal.Read
import proofs.«133525_j63127429317268_1_alg».proof.Proof.RowChain

noncomputable section

namespace Cert.ReferenceIdeal.Rows

open Cert.ReferenceIdeal Cert.ReferenceIdeal.Read Idealize.ShloMosaic Idealize.ShloMosaic.ValueIdx

variable (x0 : (⟨S1048576x64, .f32⟩ : BufTy).Contents (Elt Ideal)) (x1 x2 x4 x5 : (⟨S64x64, .f32⟩ : BufTy).Contents (Elt Ideal))
  (x3 x6 : (⟨S64x1, .f32⟩ : BufTy).Contents (Elt Ideal)) (x7 x8 : (⟨S64, .f32⟩ : BufTy).Contents (Elt Ideal))
  (x9 : (⟨S1, .f32⟩ : BufTy).Contents (Elt Ideal))

/-- The first layer's result at `(r, j)`: row `r` of `x` through the first affine map. -/
theorem layer0_apply (r : Fin 1048576) (j : Fin 64) :
    val_main_v22 (F := Ideal) x0 x1 x4 x7 (ix2 r j)
      = Cert.RowChain.hidden (val_main_v18 (F := Ideal) x1 x4) (val_main_v17 (F := Ideal) x7) (fun k => x0 (ix2 r k)) j := by
  rw [val_main_v22_apply, val_main_v19_apply, val_main_v21_apply, val_main_v20_apply]
  have hl : ∀ k : Fin 64, lidx_main_v19 (ix2 r j) k = ix2 r k := fun k =>
    funext fun a => Fin.ext (by match a with | ⟨0, _⟩ => rfl | ⟨1, _⟩ => rfl)
  have hr : ∀ k : Fin 64, ridx_main_v19 (ix2 r j) k = ix2 k j := fun k =>
    funext fun a => Fin.ext (by match a with | ⟨0, _⟩ => rfl | ⟨1, _⟩ => rfl)
  have hb : idx_main_v20 (idx_main_v21 (ix2 r j)) = ix1 j :=
    funext fun a => Fin.ext (by match a with | ⟨0, _⟩ => rfl)
  unfold Cert.RowChain.hidden
  refine congrArg₂ (· + ·) (Finset.sum_congr rfl fun k _ => ?_) ?_
  · rw [hl k, hr k]
  · rw [hb]

/-- The second layer's result at `(r, j)`: the first layer's row `r` through the second affine map. -/
theorem layer1_apply (r : Fin 1048576) (j : Fin 64) :
    val_main_v45 (F := Ideal) x0 x1 x2 x4 x5 x7 x8 (ix2 r j)
      = Cert.RowChain.hidden (val_main_v41 (F := Ideal) x2 x5) (val_main_v40 (F := Ideal) x8)
          (fun k => val_main_v22 (F := Ideal) x0 x1 x4 x7 (ix2 r k)) j := by
  rw [val_main_v45_apply, val_main_v42_apply, val_main_v44_apply, val_main_v43_apply]
  have hl : ∀ k : Fin 64, lidx_main_v42 (ix2 r j) k = ix2 r k := fun k =>
    funext fun a => Fin.ext (by match a with | ⟨0, _⟩ => rfl | ⟨1, _⟩ => rfl)
  have hr : ∀ k : Fin 64, ridx_main_v42 (ix2 r j) k = ix2 k j := fun k =>
    funext fun a => Fin.ext (by match a with | ⟨0, _⟩ => rfl | ⟨1, _⟩ => rfl)
  have hb : idx_main_v43 (idx_main_v44 (ix2 r j)) = ix1 j :=
    funext fun a => Fin.ext (by match a with | ⟨0, _⟩ => rfl)
  unfold Cert.RowChain.hidden
  refine congrArg₂ (· + ·) (Finset.sum_congr rfl fun k _ => ?_) ?_
  · rw [hl k, hr k]
  · rw [hb]

/-- The last layer's result at `(r, 0)`: the second layer's row `r` through the last affine map. -/
theorem layer2_apply (r : Fin 1048576) :
    val_main_v68 (F := Ideal) x0 x1 x2 x3 x4 x5 x6 x7 x8 x9 (ix2 r (0 : Fin 1))
      = Cert.RowChain.last (val_main_v64 (F := Ideal) x3 x6) (val_main_v63 (F := Ideal) x9)
          (fun k => val_main_v45 (F := Ideal) x0 x1 x2 x4 x5 x7 x8 (ix2 r k)) := by
  rw [val_main_v68_apply, val_main_v65_apply, val_main_v67_apply, val_main_v66_apply]
  have hl : ∀ k : Fin 64, lidx_main_v65 (ix2 r (0 : Fin 1)) k = ix2 r k := fun k =>
    funext fun a => Fin.ext (by match a with | ⟨0, _⟩ => rfl | ⟨1, _⟩ => rfl)
  have hr : ∀ k : Fin 64, ridx_main_v65 (ix2 r (0 : Fin 1)) k = ix2 k (0 : Fin 1) := fun k =>
    funext fun a => Fin.ext (by match a with | ⟨0, _⟩ => rfl | ⟨1, _⟩ => rfl)
  have hb : idx_main_v66 (idx_main_v67 (ix2 r (0 : Fin 1))) = ix1 (0 : Fin 1) :=
    funext fun a => Fin.ext (by match a with | ⟨0, _⟩ => rfl)
  unfold Cert.RowChain.last
  refine congrArg₂ (· + ·) (Finset.sum_congr rfl fun k _ => ?_) ?_
  · rw [hl k, hr k]
  · rw [hb]

/-- The reference's result array is `RowChain.out` of `x` and the six weight and bias stages. -/
theorem result_eq :
    val_main_v68 (F := Ideal) x0 x1 x2 x3 x4 x5 x6 x7 x8 x9
      = Cert.RowChain.out x0 (val_main_v18 (F := Ideal) x1 x4) (val_main_v17 (F := Ideal) x7)
          (val_main_v41 (F := Ideal) x2 x5) (val_main_v40 (F := Ideal) x8)
          (val_main_v64 (F := Ideal) x3 x6) (val_main_v63 (F := Ideal) x9) := by
  funext i
  obtain ⟨r, q, rfl⟩ : ∃ (r : Fin 1048576) (q : Fin 1), i = ix2 r q := ⟨i 0, i 1, eq_ix2 i⟩
  obtain rfl : q = 0 := Subsingleton.elim _ _
  rw [Cert.RowChain.out_ix2, layer2_apply]
  unfold Cert.RowChain.row
  refine congrArg (Cert.RowChain.last _ _) (funext fun k2 => ?_)
  rw [layer1_apply]
  refine congrArg (fun h => Cert.RowChain.hidden _ _ h k2) (funext fun k1 => ?_)
  exact layer0_apply x0 x1 x4 x7 r k1

end Cert.ReferenceIdeal.Rows

end
-- ==== Proof.lean ====
/-
  A three-layer affine chain over a million rows: the kernel against its reference, at the ideal values.

  Both programs take a matrix `x` of 1048576 rows of 64 entries, three pairs of edge logits and scales and three
  bias vectors. Both first form the effective weights `W_i = (1 / (1 + exp (-(el_i / 3)))) * es_i` and biases
  `a_i = (1 / (1 + exp (-b_i))) * 3 - 1` on the host, by the same operations on the same literals, and then send every
  row of `x` through `h ↦ h · W_0 + a_0`, `h ↦ h · W_1 + a_1` (64 → 64) and `h ↦ h · W_2 + a_2` (64 → 1). The reference does
  the three products as whole-matrix `dot_general`s; the kernel does them on the matrix unit, 32768 rows at a time
  over a grid of 32 points, each into the zero accumulator. Over the extended reals each product entry is the same
  finite sum `∑ k, h k * W (k, j)` on both sides and each bias is added the same way, so the two results are the
  same term entry by entry: no law of arithmetic beyond that reading is needed, and the finiteness of the inputs is
  never used.

  The kernel's value: the generated blockwise value leg names the output array after the run; `KernelPayload` reads
  the body's stored value at a row (over `LibMatmul2`, `LibAffineLayer`), `KernelBlocks` puts the 32 blocks together,
  `KernelHost` reads the host operations before the region back as the reference's weight and bias stages, and
  `KernelRun` states the run. The reference's value: the generated run and stage lemmas, read at an index in
  `RefRows`. `RowChain` is the function both sides are shown to be. The frames are the generated ones; the ideal pass
  rewrote nothing, so there is nothing to preserve.
-/
import proofs.«133525_j63127429317268_1_alg».proof.Defs
import proofs.«133525_j63127429317268_1_alg».proof.Proof.Gen.Kernel
import proofs.«133525_j63127429317268_1_alg».proof.Proof.Gen.Kernel.Frame
import proofs.«133525_j63127429317268_1_alg».proof.Proof.Gen.KernelIdeal
import proofs.«133525_j63127429317268_1_alg».proof.Proof.Gen.KernelIdeal.Frame
import proofs.«133525_j63127429317268_1_alg».proof.Proof.Gen.KernelIdeal.Value
import proofs.«133525_j63127429317268_1_alg».proof.Proof.Gen.ReferenceIdeal
import proofs.«133525_j63127429317268_1_alg».proof.Proof.Gen.ReferenceIdeal.Run
import proofs.«133525_j63127429317268_1_alg».proof.Proof.Gen.ReferenceIdeal.Read
import proofs.«133525_j63127429317268_1_alg».proof.Proof.Gen.Pre_finite_inputs
import proofs.«133525_j63127429317268_1_alg».proof.Proof.KernelRun
import proofs.«133525_j63127429317268_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array and the reference's are both
    `RowChain.out` of `x` and the six weight and bias stages of the other arguments. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v68_eq, Cert.ReferenceIdeal.Rows.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
